-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2816 : S_.BroadcastsInDim S8x2048x2816 (![] : Fin 0 → Fin S8x2048x2816.rank)
  reducesTo_S8x2048x2816_S_d0_1_2 : S8x2048x2816.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn {F : FTy → Type} [FloatOps F] (main_arg0 : FVec F S16384x2048 .f32) (main_arg1 : IVec S8 32) (main_arg2 : FVec F S8x2048x2816 .f32) (main_arg3 : FVec F S8x1408x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2816 .f32 := Host.absf main_arg2
  let main_cst_0 : FVec F S_ .f32 := constant S_ .f32 0x7F800000#32
  let main_v5 : FVec F S8x2048x2816 .f32 := broadcastInDim S8x2048x2816 ![] bcast_S_S8x2048x2816 main_cst_0
  let main_v6 : IVec S8x2048x2816 1 := cmpf .olt main_v4 main_v5
  let main_c_1 : IVec S_ 1 := constantI S_ 1 1#1
  let main_v7 : IVec S_ 1 := (fun x v => Host.reduce IntOp.andi x v reducesTo_S8x2048x2816_S_d0_1_2 h_S_) main_v6 main_c_1
  let main_v8 : IVec S_ 1 := andi main_v3 main_v7
  let main_v9 : FVec F S8x1408x2048 .f32 := Host.absf main_arg3
  let main_cst_2 : FVec F S_ .f32 := constant S_ .f32 0x7F800000#32
  let main_v10 : FVec F S8x1408x2048 .f32 := broadcastInDim S8x1408x2048 ![] bcast_S_S8x1408x2048 main_cst_2
  let main_v11 : IVec S8x1408x2048 1 := cmpf .olt main_v9 main_v10
  let main_c_3 : IVec S_ 1 := constantI S_ 1 1#1
  let main_v12 : IVec S_ 1 := (fun x v => Host.reduce IntOp.andi x v reducesTo_S8x1408x2048_S_d0_1_2 h_S_) main_v11 main_c_3
  let main_v13 : IVec S_ 1 := andi main_v8 main_v12
  main_v13
-- ==== Kernel.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S8x2048x2048 : Shape := ⟨3, ![8, 2048, 2048]⟩
abbrev S1x128x2048 : Shape := ⟨3, ![1, 128, 2048]⟩
abbrev S1x2048x2816 : Shape := ⟨3, ![1, 2048, 2816]⟩
abbrev S1x1408x2048 : Shape := ⟨3, ![1, 1408, 2048]⟩
abbrev S128x2048 : Shape := ⟨2, ![128, 2048]⟩
abbrev S2048x2816 : Shape := ⟨2, ![2048, 2816]⟩
abbrev S128x2816 : Shape := ⟨2, ![128, 2816]⟩
abbrev S128x1408 : Shape := ⟨2, ![128, 1408]⟩
abbrev S1408x2048 : Shape := ⟨2, ![1408, 2048]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x2816, .f32⟩
  | .hbm, ⟨3, _⟩ => ⟨S8x1408x2048, .f32⟩
  | .hbm, ⟨4, _⟩ => ⟨S8x2048x2048, .f32⟩
  | .hbm, ⟨5, _⟩ => ⟨S8x2048x2816, .bf16⟩
  | .hbm, ⟨6, _⟩ => ⟨S8x1408x2048, .bf16⟩
  | .hbm, ⟨7, _⟩ => ⟨S8x2048x2048, .f32⟩
  | .hbm, ⟨8, _⟩ => ⟨S16384x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x2816, .bf16⟩
  | .local _ .vmem, ⟨3, _⟩ => ⟨S1x2048x2816, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1x128x2048, .f32⟩
  | .local _ .vmem, ⟨7, _⟩ => ⟨S1x128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x2048_S8x2048x2048 : S16384x2048.ShapeCasts S8x2048x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x2816_S1x2048x2816_0_0_0 : ∀ a, (![0, 0, 0] : Fin 3 → Nat) a + S1x2048x2816.size a ≤ S1x2048x2816.size a
  h_S1x2048x2816 : 0 < S1x2048x2816.numel
  shapeCasts_S1x2048x2816_S2048x2816 : S1x2048x2816.ShapeCasts S2048x2816
  slices_S128x2816_o0_0_S128x1408 : S128x2816.Slices ![0, 0] S128x1408
  slices_S128x2816_o0_1408_S128x1408 : S128x2816.Slices ![0, 1408] S128x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  shapeCasts_S128x2048_S1x128x2048 : S128x2048.ShapeCasts S1x128x2048
  shapeCasts_S8x2048x2048_S16384x2048 : S8x2048x2048.ShapeCasts S16384x2048
  dot_S128x2048_S2048x2816_S128x2816_1_0_0_1_n_n_wf : DotDims.WF S128x2048 S2048x2816 S128x2816 [1] [0] [0] [1] [] []
  dot_S128x1408_S1408x2048_S128x2048_1_0_0_1_n_n_wf : DotDims.WF S128x1408 S1408x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x2048x2048.size a
  hwx0_0 : ∀ i : grid0.Coords, EltTy.bits .f32 = 32 ∨ (Rect.block (s := S8x2048x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2816.size a ≤ S8x2048x2816.size a
  hwx0_1 : ∀ i : grid0.Coords, EltTy.bits .bf16 = 32 ∨ (Rect.block (s := S8x2048x2816) S1x2048x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408x2048.size a ≤ S8x1408x2048.size a
  hwx0_2 : ∀ i : grid0.Coords, EltTy.bits .bf16 = 32 ∨ (Rect.block (s := S8x1408x2048) S1x1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x2048x2048.size a
  hwx0_3 : ∀ i : grid0.Coords, EltTy.bits .f32 = 32 ∨ (Rect.block (s := S8x2048x2048) S1x128x2048.size (cc0_transform_3 i) (hinb0_3 i)).WholeWords (EltTy.packing .f32)

variable [Facts₀]

def dot_S128x2048_S2048x2816_S128x2816_1_0_0_1_n_n : DotDims S128x2048 S2048x2816 S128x2816 where
  lhsContracting := [1]
  rhsContracting := [0]
  lhsNonContracting := [0]
  rhsNonContracting := [1]
  lhsBatch := []
  rhsBatch := []
  wf := dot_S128x2048_S2048x2816_S128x2816_1_0_0_1_n_n_wf
def dot_S128x1408_S1408x2048_S128x2048_1_0_0_1_n_n : DotDims S128x1408 S1408x2048 S128x2048 where
  lhsContracting := [1]
  rhsContracting := [0]
  lhsNonContracting := [0]
  rhsNonContracting := [1]
  lhsBatch := []
  rhsBatch := []
  wf := dot_S128x1408_S1408x2048_S128x2048_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x2816.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1408x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8 : Shape := ⟨1, ![8]⟩
abbrev S8x2048x2816 : Shape := ⟨3, ![8, 2048, 2816]⟩
abbrev S8x1408x2048 : Shape := ⟨3, ![8, 1408, 2048]⟩
abbrev S8x2048x2048 : Shape := ⟨3, ![8, 2048, 2048]⟩
abbrev S8x2048x1408 : Shape := ⟨3, ![8, 2048, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x2816, .f32⟩
  | .hbm, ⟨3, _⟩ => ⟨S8x1408x2048, .f32⟩
  | .hbm, ⟨4, _⟩ => ⟨S8x2048x2048, .f32⟩
  | .hbm, ⟨5, _⟩ => ⟨S8x2048x2816, .f32⟩
  | .hbm, ⟨6, _⟩ => ⟨S8x2048x1408, .f32⟩
  | .hbm, ⟨7, _⟩ => ⟨S8x2048x1408, .f32⟩
  | .hbm, ⟨8, _⟩ => ⟨S8x2048x1408, .f32⟩
  | .hbm, ⟨9, _⟩ => ⟨S8x2048x1408, .f32⟩
  | .hbm, ⟨10, _⟩ => ⟨S_, .f32⟩
  | .hbm, ⟨11, _⟩ => ⟨S8x2048x1408, .f32⟩
  | .hbm, ⟨12, _⟩ => ⟨S8x2048x1408, .f32⟩
  | .hbm, ⟨13, _⟩ => ⟨S_, .f32⟩
  | .hbm, ⟨14, _⟩ => ⟨S8x2048x1408, .f32⟩
  | .hbm, ⟨15, _⟩ => ⟨S8x2048x1408, .f32⟩
  | .hbm, ⟨16, _⟩ => ⟨S8x2048x1408, .f32⟩
  | .hbm, ⟨17, _⟩ => ⟨S8x2048x1408, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x2816_S8x2048x1408_0_0_0 : S8x2048x2816.Slices ![0, 0, 0] S8x2048x1408
  slices_S8x2048x2816_S8x2048x1408_0_0_1408 : S8x2048x2816.Slices ![0, 0, 1408] S8x2048x1408
  bcast_S_S8x2048x1408 : S_.BroadcastsInDim S8x2048x1408 (![] : Fin 0 → Fin S8x2048x1408.rank)
  shapeCasts_S8x2048x2048_S16384x2048 : S8x2048x2048.ShapeCasts S16384x2048
  dot_S8x2048x2048_S8x2048x2816_S8x2048x2816_2_1_1_2_0_0_wf : DotDims.WF S8x2048x2048 S8x2048x2816 S8x2048x2816 [2] [1] [1] [2] [0] [0]
  dot_S8x2048x1408_S8x1408x2048_S8x2048x2048_2_1_1_2_0_0_wf : DotDims.WF S8x2048x1408 S8x1408x2048 S8x2048x2048 [2] [1] [1] [2] [0] [0]

variable [Facts₀]

def dot_S8x2048x2048_S8x2048x2816_S8x2048x2816_2_1_1_2_0_0 : DotDims S8x2048x2048 S8x2048x2816 S8x2048x2816 where
  lhsContracting := [2]
  rhsContracting := [1]
  lhsNonContracting := [1]
  rhsNonContracting := [2]
  lhsBatch := [0]
  rhsBatch := [0]
  wf := dot_S8x2048x2048_S8x2048x2816_S8x2048x2816_2_1_1_2_0_0_wf
def dot_S8x2048x1408_S8x1408x2048_S8x2048x2048_2_1_1_2_0_0 : DotDims S8x2048x1408 S8x1408x2048 S8x2048x2048 where
  lhsContracting := [2]
  rhsContracting := [1]
  lhsNonContracting := [1]
  rhsNonContracting := [2]
  lhsBatch := [0]
  rhsBatch := [0]
  wf := dot_S8x2048x1408_S8x1408x2048_S8x2048x2048_2_1_1_2_0_0_wf

class Facts : Prop extends Facts₀ where

variable [Facts]
-- ==== Proof.Swiglu.lean ====
/-
  One expert's gated feed-forward block, as a function on the extended reals.

  A token's row `x` (2048 entries) is multiplied by the expert's first weight matrix `w1` (2048 × 2816). The 2816
  columns of the product are two halves of 1408: column `f` of the first half is the GATE `g f`, column `1408 + f`
  of the second half the VALUE `v f`. The activation is `silu (g f) * v f` with `silu g = g * logistic g`, and the
  token's result at an output column is the product of the activation row with that column `w2` of the expert's
  second weight matrix (1408 × 2048):

      tokenOut x w1 w2 = Σ_f ((g f * logistic (g f)) * v f) * w2 f,     g f = Σ_k x k * w1 k f,  v f = Σ_k x k * w1 k (1408 + f).

  `expertsOut` is that function at every (expert, token, column) of three stacked arrays. Nothing here needs a law of
  the extended reals: the two programs this certificate compares build exactly this term, in this order of factors.
-/
import Idealize.ShloMosaic.PureOps.Ideal
import Idealize.ShloMosaic.PureOps.Ideal.Laws
import Idealize.ShloMosaic.Lib.ValueIdx

noncomputable section

namespace Cert.ExpertMlp

open Idealize.ShloMosaic Idealize.ShloMosaic.ValueIdx

/-- Column `f` of the gate half of the up-projection. -/
abbrev gateCol (f : Fin 1408) : Fin 2816 := ⟨f.val, by have := f.isLt; omega⟩
/-- Column `f` of the value half: `1408` columns further on. -/
abbrev valueCol (f : Fin 1408) : Fin 2816 := ⟨1408 + f.val, by have := f.isLt; omega⟩

/-- One token's up-projection at column `f`: the row times column `f` of the first weight matrix. -/
def upProj (x : Fin 2048 → EReal) (w1 : Fin 2048 → Fin 2816 → EReal) (f : Fin 2816) : EReal :=
  ∑ k : Fin 2048, x k * w1 k f

/-- The activation at hidden unit `f`: `silu` of the gate times the value, with `silu g = g * logistic g`. -/
def gated (x : Fin 2048 → EReal) (w1 : Fin 2048 → Fin 2816 → EReal) (f : Fin 1408) : EReal :=
  (upProj x w1 (gateCol f) * Ideal.logistic (upProj x w1 (gateCol f))) * upProj x w1 (valueCol f)

/-- One token's result at one output column: the activation row times that column of the second weight matrix. -/
def tokenOut (x : Fin 2048 → EReal) (w1 : Fin 2048 → Fin 2816 → EReal) (w2 : Fin 1408 → EReal) : EReal :=
  ∑ f : Fin 1408, gated x w1 f * w2 f

/-- The stacked form: entry (e, t, h) is token `t` of expert `e` through expert `e`'s two matrices, at column `h`. -/
def expertsOut (X : (⟨3, ![8, 2048, 2048]⟩ : Shape).Idx → EReal) (W1 : (⟨3, ![8, 2048, 2816]⟩ : Shape).Idx → EReal)
    (W2 : (⟨3, ![8, 1408, 2048]⟩ : Shape).Idx → EReal) : (⟨3, ![8, 2048, 2048]⟩ : Shape).Idx → EReal := fun i =>
  tokenOut (fun k => X (ix3 (i 0) (i 1) k)) (fun k f => W1 (ix3 (i 0) k f)) (fun f => W2 (ix3 (i 0) f (i 2)))

/-- The f32 word of `1.0` is the extended real `1`. -/
theorem ofBits_one_f32 : Ideal.ofBits .f32 0x3F800000#32 = 1 := by
  simp [Ideal.ofBits, Ideal.ieee, -EReal.coe_mul]
  norm_num

/-- `logistic` spelt with that word for its two ones: `1.0 / (1.0 + exp (-g))`. -/
theorem logistic_eq_div (g : EReal) :
    Ideal.div (Ideal.ofBits .f32 0x3F800000#32) (Ideal.ofBits .f32 0x3F800000#32 + Ideal.exp (-g)) = Ideal.logistic g := by
  rw [ofBits_one_f32]; rfl

end Cert.ExpertMlp

end
-- ==== Proof.RefValue.lean ====
/-
  The reference program's result before its final reshape, read at an index.

  The reference reshapes the tokens to (expert, token, feature), takes one batched matrix product with the first
  weights, slices the product into its gate half (columns 0 … 1407) and value half (columns 1408 … 2815), forms
  `gate * (1 / (1 + exp (-gate)))` and multiplies by the value half, and takes a second batched product with the
  second weights. Entry (e, t, h) of that last product is `tokenOut` of row (e, t) of the reshaped tokens, expert
  `e`'s first matrix, and column `h` of expert `e`'s second matrix: the batched products are sums over the one
  contracted axis, the slices shift the last coordinate by 0 and by 1408, and the quotient `1 / (1 + exp (-g))` is
  `logistic g`.
-/
import proofs.«110397_j60026462929318_2_alg».proof.Proof.Gen.ReferenceIdeal.Read
import proofs.«110397_j60026462929318_2_alg».proof.Proof.Swiglu

noncomputable section

namespace Cert.ExpertMlp.Reference

open Cert.ReferenceIdeal Cert.ReferenceIdeal.Read Idealize.ShloMosaic Idealize.ShloMosaic.ValueIdx

/-! ## The index functions of the two products and the two slices, by coordinates -/

/-- The second product's right operand at output (e, t, h) and contraction position `f` is entry (e, f, h). -/
theorem down_rhs (i : S8x2048x2048.Idx) (f : Fin 1408) : ridx_main_v6 i f = ix3 (i 0) f (i 2) :=
  funext fun a => by match a with | ⟨0, _⟩ => rfl | ⟨1, _⟩ => rfl | ⟨2, _⟩ => rfl

/-- Through the gate slice, the first product's left operand at (e, t, f), position `k`, is token entry (e, t, k). -/
theorem gate_lhs (i : S8x2048x2048.Idx) (f : Fin 1408) (k : Fin 2048) :
    lidx_main_v1 (idx_main_v2 (lidx_main_v6 i f)) k = ix3 (i 0) (i 1) k :=
  funext fun a => by match a with | ⟨0, _⟩ => rfl | ⟨1, _⟩ => rfl | ⟨2, _⟩ => rfl
/-- and its right operand is weight entry (e, k, f). -/
theorem gate_rhs (i : S8x2048x2048.Idx) (f : Fin 1408) (k : Fin 2048) :
    ridx_main_v1 (idx_main_v2 (lidx_main_v6 i f)) k = ix3 (i 0) k (gateCol f) :=
  funext fun a => by match a with | ⟨0, _⟩ => rfl | ⟨1, _⟩ => rfl | ⟨2, _⟩ => rfl
/-- Through the value slice the left operand is the same token entry, -/
theorem value_lhs (i : S8x2048x2048.Idx) (f : Fin 1408) (k : Fin 2048) :
    lidx_main_v1 (idx_main_v3 (lidx_main_v6 i f)) k = ix3 (i 0) (i 1) k :=
  funext fun a => by match a with | ⟨0, _⟩ => rfl | ⟨1, _⟩ => rfl | ⟨2, _⟩ => rfl
/-- and the right operand is weight entry (e, k, 1408 + f). -/
theorem value_rhs (i : S8x2048x2048.Idx) (f : Fin 1408) (k : Fin 2048) :
    ridx_main_v1 (idx_main_v3 (lidx_main_v6 i f)) k = ix3 (i 0) k (valueCol f) :=
  funext fun a => by match a with | ⟨0, _⟩ => rfl | ⟨1, _⟩ => rfl | ⟨2, _⟩ => rfl

/-! ## The up-projection's two halves -/

variable (x0 : (⟨S16384x2048, .f32⟩ : BufTy).Contents (Elt Ideal)) (x2 : (⟨S8x2048x2816, .f32⟩ : BufTy).Contents (Elt Ideal))
  (x3 : (⟨S8x1408x2048, .f32⟩ : BufTy).Contents (Elt Ideal))

/-- The gate half at (e, t, f) is the token's up-projection at column `f`. -/
theorem gate_eq (i : S8x2048x2048.Idx) (f : Fin 1408) :
    val_main_v1 (F := Ideal) x0 x2 (idx_main_v2 (lidx_main_v6 i f))
      = upProj (fun k => val_main_v0 (F := Ideal) x0 (ix3 (i 0) (i 1) k)) (fun k f' => x2 (ix3 (i 0) k f')) (gateCol f) := by
  rw [val_main_v1_apply]
  unfold upProj
  refine Finset.sum_congr rfl fun k _ => ?_
  rw [gate_lhs, gate_rhs]
  rfl

/-- The value half at (e, t, f) is its up-projection at column `1408 + f`. -/
theorem value_eq (i : S8x2048x2048.Idx) (f : Fin 1408) :
    val_main_v1 (F := Ideal) x0 x2 (idx_main_v3 (lidx_main_v6 i f))
      = upProj (fun k => val_main_v0 (F := Ideal) x0 (ix3 (i 0) (i 1) k)) (fun k f' => x2 (ix3 (i 0) k f')) (valueCol f) := by
  rw [val_main_v1_apply]
  unfold upProj
  refine Finset.sum_congr rfl fun k _ => ?_
  rw [value_lhs, value_rhs]
  rfl

/-! ## The activation and the result -/

/-- The activation the reference feeds its second product, at (e, t, f). -/
theorem act_eq (i : S8x2048x2048.Idx) (f : Fin 1408) :
    val_main_v5 (F := Ideal) x0 x2 (lidx_main_v6 i f)
      = gated (fun k => val_main_v0 (F := Ideal) x0 (ix3 (i 0) (i 1) k)) (fun k f' => x2 (ix3 (i 0) k f')) f := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v3_apply, gate_eq, value_eq]
  unfold gated
  rw [← logistic_eq_div]
  rfl

/-- THE REFERENCE'S RESULT before its final reshape is `expertsOut` of the reshaped tokens and the two weight arrays. -/
theorem result_eq :
    val_main_v6 (F := Ideal) x0 x2 x3 = expertsOut (val_main_v0 (F := Ideal) x0) x2 x3 := by
  funext i
  rw [val_main_v6_apply]
  unfold expertsOut tokenOut
  refine Finset.sum_congr rfl fun f _ => ?_
  rw [down_rhs, act_eq]
  rfl

end Cert.ExpertMlp.Reference

end
-- ==== Proof.Body.lean ====
/-
  What the kernel body computes from its three blocks, read at one entry.

  At a grid point the body holds a 128-token block of one expert's tokens (1 × 128 × 2048), that expert's first
  weight matrix (1 × 2048 × 2816) and its second (1 × 1408 × 2048). It drops the leading unit axis of each, multiplies
  the token block by the first matrix into a zero accumulator, takes the product's columns 0 … 1407 as gates and
  1408 … 2815 as values, forms `(gate * logistic gate) * value`, multiplies that by the second matrix into a zero
  accumulator, and puts the unit axis back. The changes of float format on the way are the identity on the extended
  reals. So entry (0, p, h) of what it stores is `tokenOut` of row `p` of the token block, the first matrix, and
  column `h` of the second matrix.
-/
import proofs.«110397_j60026462929318_2_alg».proof.Proof.Gen.KernelIdeal.Skeleton
import proofs.«110397_j60026462929318_2_alg».proof.Proof.Swiglu
import Idealize.ShloMosaic.Lib.ValueIdx
import Idealize.ShloMosaic.Lib.ValueLayout
import Idealize.ShloMosaic.Lib.Pipeline.Value
import Idealize.ShloMosaic.PureOps.Ideal.Laws

noncomputable section

namespace Cert.ExpertMlp.Body

open Cert.KernelIdeal Cert.KernelIdeal.Gen Idealize.ShloMosaic Idealize.ShloMosaic.ValueIdx

/-! ## The two matrix products at an entry -/

/-! Neither product has a batch axis: the left operand is (row, contraction), the right (contraction, column). -/

/-- The left operand's row is the output's row. -/
theorem up_lhs_row (j : S128x2816.Idx) (q : dot_S128x2048_S2048x2816_S128x2816_1_0_0_1_n_n.contr.Idx) : (dot_S128x2048_S2048x2816_S128x2816_1_0_0_1_n_n.lhsIdx j q 0).val = (j 0).val := by
  unfold DotDims.lhsIdx
  rw [dif_neg (show ¬(0 : Fin S128x2048.rank) ∈ dot_S128x2048_S2048x2816_S128x2816_1_0_0_1_n_n.lhsBatch by decide), dif_pos (show (0 : Fin S128x2048.rank) ∈ dot_S128x2048_S2048x2816_S128x2816_1_0_0_1_n_n.lhsNonContracting by decide)]
  rfl
/-- The left operand's column is the contraction position. -/
theorem up_lhs_col (j : S128x2816.Idx) (q : dot_S128x2048_S2048x2816_S128x2816_1_0_0_1_n_n.contr.Idx) : (dot_S128x2048_S2048x2816_S128x2816_1_0_0_1_n_n.lhsIdx j q 1).val = (q ⟨0, by decide⟩).val :=
  dot_S128x2048_S2048x2816_S128x2816_1_0_0_1_n_n.lhsIdx_val_of_single rfl j q
/-- The right operand's row is the contraction position. -/
theorem up_rhs_row (j : S128x2816.Idx) (q : dot_S128x2048_S2048x2816_S128x2816_1_0_0_1_n_n.contr.Idx) : (dot_S128x2048_S2048x2816_S128x2816_1_0_0_1_n_n.rhsIdx j q 0).val = (q ⟨0, by decide⟩).val :=
  dot_S128x2048_S2048x2816_S128x2816_1_0_0_1_n_n.rhsIdx_val_of_single rfl j q
/-- The right operand's column is the output's column. -/
theorem up_rhs_col (j : S128x2816.Idx) (q : dot_S128x2048_S2048x2816_S128x2816_1_0_0_1_n_n.contr.Idx) : (dot_S128x2048_S2048x2816_S128x2816_1_0_0_1_n_n.rhsIdx j q 1).val = (j 1).val := by
  unfold DotDims.rhsIdx
  rw [dif_neg (show ¬(1 : Fin S2048x2816.rank) ∈ dot_S128x2048_S2048x2816_S128x2816_1_0_0_1_n_n.rhsBatch by decide), dif_pos (show (1 : Fin S2048x2816.rank) ∈ dot_S128x2048_S2048x2816_S128x2816_1_0_0_1_n_n.rhsNonContracting by decide)]
  rfl

/-- The up-projection's product: entry (p, f) is the sum over `k` of left (p, k) times right (k, f). -/
theorem up_apply (a : FVec Ideal S128x2048 .bf16) (b : FVec Ideal S2048x2816 .bf16) (p : Fin 128) (f : Fin 2816) :
    matmul dot_S128x2048_S2048x2816_S128x2816_1_0_0_1_n_n none a b (constant (F := Ideal) S128x2816 .f32 0x00000000#32) (ix2 p f)
      = ∑ k : Fin 2048, a (ix2 p k) * b (ix2 k f) := by
  simp only [matmul]
  rw [Ideal.matmul_constant_zero_apply, ← Equiv.sum_comp (contrEquiv1 dot_S128x2048_S2048x2816_S128x2816_1_0_0_1_n_n 2048 rfl rfl).symm]
  refine Finset.sum_congr rfl fun k _ => ?_
  have hk := contrEquiv1_symm_val dot_S128x2048_S2048x2816_S128x2816_1_0_0_1_n_n 2048 rfl rfl k
  have el : dot_S128x2048_S2048x2816_S128x2816_1_0_0_1_n_n.lhsIdx (ix2 p f) ((contrEquiv1 dot_S128x2048_S2048x2816_S128x2816_1_0_0_1_n_n 2048 rfl rfl).symm k) = ix2 p k :=
    funext fun c => Fin.ext (by
      match c with
      | ⟨0, _⟩ => exact up_lhs_row _ _
      | ⟨1, _⟩ => exact (up_lhs_col _ _).trans hk)
  have er : dot_S128x2048_S2048x2816_S128x2816_1_0_0_1_n_n.rhsIdx (ix2 p f) ((contrEquiv1 dot_S128x2048_S2048x2816_S128x2816_1_0_0_1_n_n 2048 rfl rfl).symm k) = ix2 k f :=
    funext fun c => Fin.ext (by
      match c with
      | ⟨0, _⟩ => exact (up_rhs_row _ _).trans hk
      | ⟨1, _⟩ => exact up_rhs_col _ _)
  rw [el, er]

/-- The left operand's row is the output's row. -/
theorem down_lhs_row (j : S128x2048.Idx) (q : dot_S128x1408_S1408x2048_S128x2048_1_0_0_1_n_n.contr.Idx) : (dot_S128x1408_S1408x2048_S128x2048_1_0_0_1_n_n.lhsIdx j q 0).val = (j 0).val := by
  unfold DotDims.lhsIdx
  rw [dif_neg (show ¬(0 : Fin S128x1408.rank) ∈ dot_S128x1408_S1408x2048_S128x2048_1_0_0_1_n_n.lhsBatch by decide), dif_pos (show (0 : Fin S128x1408.rank) ∈ dot_S128x1408_S1408x2048_S128x2048_1_0_0_1_n_n.lhsNonContracting by decide)]
  rfl
/-- The left operand's column is the contraction position. -/
theorem down_lhs_col (j : S128x2048.Idx) (q : dot_S128x1408_S1408x2048_S128x2048_1_0_0_1_n_n.contr.Idx) : (dot_S128x1408_S1408x2048_S128x2048_1_0_0_1_n_n.lhsIdx j q 1).val = (q ⟨0, by decide⟩).val :=
  dot_S128x1408_S1408x2048_S128x2048_1_0_0_1_n_n.lhsIdx_val_of_single rfl j q
/-- The right operand's row is the contraction position. -/
theorem down_rhs_row (j : S128x2048.Idx) (q : dot_S128x1408_S1408x2048_S128x2048_1_0_0_1_n_n.contr.Idx) : (dot_S128x1408_S1408x2048_S128x2048_1_0_0_1_n_n.rhsIdx j q 0).val = (q ⟨0, by decide⟩).val :=
  dot_S128x1408_S1408x2048_S128x2048_1_0_0_1_n_n.rhsIdx_val_of_single rfl j q
/-- The right operand's column is the output's column. -/
theorem down_rhs_col (j : S128x2048.Idx) (q : dot_S128x1408_S1408x2048_S128x2048_1_0_0_1_n_n.contr.Idx) : (dot_S128x1408_S1408x2048_S128x2048_1_0_0_1_n_n.rhsIdx j q 1).val = (j 1).val := by
  unfold DotDims.rhsIdx
  rw [dif_neg (show ¬(1 : Fin S1408x2048.rank) ∈ dot_S128x1408_S1408x2048_S128x2048_1_0_0_1_n_n.rhsBatch by decide), dif_pos (show (1 : Fin S1408x2048.rank) ∈ dot_S128x1408_S1408x2048_S128x2048_1_0_0_1_n_n.rhsNonContracting by decide)]
  rfl

/-- The down-projection's product: entry (p, h) is the sum over `f` of left (p, f) times right (f, h). -/
theorem down_apply (a : FVec Ideal S128x1408 .bf16) (b : FVec Ideal S1408x2048 .bf16) (p : Fin 128) (h : Fin 2048) :
    matmul dot_S128x1408_S1408x2048_S128x2048_1_0_0_1_n_n none a b (constant (F := Ideal) S128x2048 .f32 0x00000000#32) (ix2 p h)
      = ∑ f : Fin 1408, a (ix2 p f) * b (ix2 f h) := by
  simp only [matmul]
  rw [Ideal.matmul_constant_zero_apply, ← Equiv.sum_comp (contrEquiv1 dot_S128x1408_S1408x2048_S128x2048_1_0_0_1_n_n 1408 rfl rfl).symm]
  refine Finset.sum_congr rfl fun f _ => ?_
  have hk := contrEquiv1_symm_val dot_S128x1408_S1408x2048_S128x2048_1_0_0_1_n_n 1408 rfl rfl f
  have el : dot_S128x1408_S1408x2048_S128x2048_1_0_0_1_n_n.lhsIdx (ix2 p h) ((contrEquiv1 dot_S128x1408_S1408x2048_S128x2048_1_0_0_1_n_n 1408 rfl rfl).symm f) = ix2 p f :=
    funext fun c => Fin.ext (by
      match c with
      | ⟨0, _⟩ => exact down_lhs_row _ _
      | ⟨1, _⟩ => exact (down_lhs_col _ _).trans hk)
  have er : dot_S128x1408_S1408x2048_S128x2048_1_0_0_1_n_n.rhsIdx (ix2 p h) ((contrEquiv1 dot_S128x1408_S1408x2048_S128x2048_1_0_0_1_n_n 1408 rfl rfl).symm f) = ix2 f h :=
    funext fun c => Fin.ext (by
      match c with
      | ⟨0, _⟩ => exact (down_rhs_row _ _).trans hk
      | ⟨1, _⟩ => exact down_rhs_col _ _)
  rw [el, er]

/-! ## The two halves of the up-projection -/

/-- The gate half at (p, f) is the product at column `f`. -/
theorem gate_slice (v : FVec Ideal S128x2816 .f32) (p : Fin 128) (f : Fin 1408) :
    extractStridedSlice S128x1408 ![0, 0] v slices_S128x2816_o0_0_S128x1408 (ix2 p f) = v (ix2 p (gateCol f)) :=
  extractStridedSlice_apply ![0, 0] v slices_S128x2816_o0_0_S128x1408 (ix2 p f) (ix2 p (gateCol f)) (fun c => match c with
    | ⟨0, _⟩ => by show p.val = 0 + p.val; omega
    | ⟨1, _⟩ => by show f.val = 0 + f.val; omega)

/-- The value half at (p, f) is the product at column `1408 + f`. -/
theorem value_slice (v : FVec Ideal S128x2816 .f32) (p : Fin 128) (f : Fin 1408) :
    extractStridedSlice S128x1408 ![0, 1408] v slices_S128x2816_o0_1408_S128x1408 (ix2 p f) = v (ix2 p (valueCol f)) :=
  extractStridedSlice_apply ![0, 1408] v slices_S128x2816_o0_1408_S128x1408 (ix2 p f) (ix2 p (valueCol f)) (fun c => match c with
    | ⟨0, _⟩ => by show p.val = 0 + p.val; omega
    | ⟨1, _⟩ => by show 1408 + f.val = 1408 + f.val; omega)

/-! ## The activation at an entry -/

/-- The activation the body feeds its second product, at (p, f), from the first product `v`: the gate times its
    `logistic`, times the value; the change of float format after it is the identity. -/
theorem act_apply (v : FVec Ideal S128x2816 .f32) (p : Fin 128) (f : Fin 1408) :
    truncf .bf16 (mulf (mulf (extractStridedSlice S128x1408 ![0, 0] v slices_S128x2816_o0_0_S128x1408)
        (logistic (extractStridedSlice S128x1408 ![0, 0] v slices_S128x2816_o0_0_S128x1408)))
      (extractStridedSlice S128x1408 ![0, 1408] v slices_S128x2816_o0_1408_S128x1408)) bitsLt_bf16_f32 (ix2 p f)
      = (v (ix2 p (gateCol f)) * Ideal.logistic (v (ix2 p (gateCol f)))) * v (ix2 p (valueCol f)) := by
  show (extractStridedSlice S128x1408 ![0, 0] v slices_S128x2816_o0_0_S128x1408 (ix2 p f)
      * Ideal.logistic (extractStridedSlice S128x1408 ![0, 0] v slices_S128x2816_o0_0_S128x1408 (ix2 p f)))
    * extractStridedSlice S128x1408 ![0, 1408] v slices_S128x2816_o0_1408_S128x1408 (ix2 p f) = _
  rw [gate_slice, value_slice]

/-- The first product of the two blocks with their unit axes dropped, at (p, f), is row `p`'s up-projection at `f`. -/
theorem up_blocks (x0 : Vec Ideal S1x128x2048 .f32) (x1 : Vec Ideal S1x2048x2816 .bf16) (p : Fin 128) (f : Fin 2816) :
    matmul dot_S128x2048_S2048x2816_S128x2816_1_0_0_1_n_n none
        (truncf .bf16 (shapeCast S128x2048 x0 shapeCasts_S1x128x2048_S128x2048 : FVec Ideal S128x2048 .f32) bitsLt_bf16_f32)
        (shapeCast S2048x2816 x1 shapeCasts_S1x2048x2816_S2048x2816 : FVec Ideal S2048x2816 .bf16)
        (constant (F := Ideal) S128x2816 .f32 0x00000000#32) (ix2 p f)
      = upProj (fun k => x0 (ix3 (0 : Fin 1) p k)) (fun k f' => x1 (ix3 (0 : Fin 1) k f')) f := by
  rw [up_apply]
  unfold upProj
  refine Finset.sum_congr rfl fun k _ => ?_
  rw [truncf_apply, shapeCast_1ab_ab_apply, shapeCast_1ab_ab_apply]

/-! ## The stored block at an entry -/

/-- THE BODY'S RESULT at (0, p, h): `tokenOut` of row `p` of the token block, the first weight block, and column `h` of
    the second weight block. -/
theorem payload_apply (x0 : Vec Ideal S1x128x2048 .f32) (x1 : Vec Ideal S1x2048x2816 .bf16) (x2 : Vec Ideal S1x1408x2048 .bf16)
    (u : Fin 1) (p : Fin 128) (h : Fin 2048) :
    k0_pay1 (F := Ideal) x0 x1 x2 (ix3 u p h)
      = tokenOut (fun k => x0 (ix3 (0 : Fin 1) p k)) (fun k f => x1 (ix3 (0 : Fin 1) k f)) (fun f => x2 (ix3 (0 : Fin 1) f h)) := by
  unfold k0_pay1
  refine (shapeCast_ab_1ab_apply _ _ u p h).trans ?_
  refine (down_apply _ _ p h).trans ?_
  unfold tokenOut
  refine Finset.sum_congr rfl fun f _ => ?_
  rw [act_apply, up_blocks, up_blocks, shapeCast_1ab_ab_apply]
  rfl

end Cert.ExpertMlp.Body

end
-- ==== Proof.Blocks.lean ====
/-
  From what each grid point writes back to the whole output array of the region.

  The grid is 8 experts × 16 token tiles. At the point of expert `e` and tile `τ` the token window's block is rows
  128 τ … 128 τ + 127 of expert `e`'s tokens, the two weight windows' blocks are expert `e`'s two matrices whole, and
  the output window's block is rows 128 τ … 128 τ + 127 of expert `e`'s output. So the entry the body stores at
  (0, p, h) lands at (e, 128 τ + p, h) of the output array, and is `tokenOut` of token row (e, 128 τ + p), expert `e`'s
  first matrix, and column `h` of its second: the entry of `expertsOut` there. Every (e, r, h) lies in the block of the
  point (e, r / 128), so after the last write-back the array is `expertsOut` of the three arrays the region was
  entered with.
-/
import proofs.«110397_j60026462929318_2_alg».proof.Proof.Gen.KernelIdeal.Frame
import proofs.«110397_j60026462929318_2_alg».proof.Proof.Body
import Idealize.ShloMosaic.Lib.Pipeline.Value

set_option maxRecDepth 16384

noncomputable section

namespace Cert.ExpertMlp.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body loads and stores at offset zero on every axis. -/
theorem zero_offsets : (![0, 0, 0] : Fin 3 → Nat) = fun _ => 0 := funext fun a => by fin_cases a <;> rfl

/-! ## How the four windows move over the grid -/

/-- Decided over the 128 points: the token window moves with the output window on the expert and tile axes, the two
    weight windows with it on the expert axis alone, and every other block index is zero; the output's expert index
    is below 8 and its tile index below 16. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 8 ∧ win0_3.index t (1 : Fin 3) < 16 :=
  (by decide +kernel : ∀ t : Fin grid0.N, _)

/-- Every (expert, tile) is some point's output block. -/
theorem index_onto : ∀ (e : Fin 8) (tile : Fin 16), ∃ t : Fin cfg0.N, win0_3.index t = ![e.val, tile.val, 0] :=
  (by decide +kernel : ∀ (e : Fin 8) (tile : Fin 16), ∃ t : Fin grid0.N, win0_3.index t = ![e.val, tile.val, 0])

/-! ## A stored entry is an entry of `expertsOut` -/

/-- If row `y 1` of the token block is token row (i 0, i 1) of `A0`, the first weight block is expert `i 0`'s matrix in
    `A1`, and column `y 2` of the second weight block is column `i 2` of expert `i 0`'s matrix in `A2`, then the body's
    result at `y` is `expertsOut A0 A1 A2` at `i`. -/
theorem entry_of_blocks (A0 : S8x2048x2048.Idx → EReal) (A1 : S8x2048x2816.Idx → EReal) (A2 : S8x1408x2048.Idx → EReal)
    (x0 : Vec Ideal S1x128x2048 .f32) (x1 : Vec Ideal S1x2048x2816 .bf16) (x2 : Vec Ideal S1x1408x2048 .bf16)
    (y : S1x128x2048.Idx) (i : S8x2048x2048.Idx)
    (h0 : ∀ k : Fin 2048, x0 (ix3 (0 : Fin 1) (y 1) k) = A0 (ix3 (i 0) (i 1) k))
    (h1 : ∀ (k : Fin 2048) (f : Fin 2816), x1 (ix3 (0 : Fin 1) k f) = A1 (ix3 (i 0) k f))
    (h2 : ∀ f : Fin 1408, x2 (ix3 (0 : Fin 1) f (y 2)) = A2 (ix3 (i 0) f (i 2))) :
    k0_pay1 (F := Ideal) x0 x1 x2 y = expertsOut A0 A1 A2 i := by
  refine (congrArg (k0_pay1 (F := Ideal) x0 x1 x2) (eq_ix3 y)).trans ((Body.payload_apply x0 x1 x2 (y 0) (y 1) (y 2)).trans ?_)
  unfold expertsOut
  have e0 : (fun k => x0 (ix3 (0 : Fin 1) (y 1) k)) = fun k => A0 (ix3 (i 0) (i 1) k) := funext h0
  have e1 : (fun k f => x1 (ix3 (0 : Fin 1) k f)) = fun k f => A1 (ix3 (i 0) k f) := funext fun k => funext (h1 k)
  have e2 : (fun f => x2 (ix3 (0 : Fin 1) f (y 2))) = fun f => A2 (ix3 (i 0) f (i 2)) := funext h2
  rw [e0, e1, e2]

/-! ## What a point writes back -/

/-- WHAT POINT `t` WRITES BACK is block `t` of `expertsOut` of the three arrays as the region finds them. -/
theorem flushed_eq (c : Dev nD) (t : Fin cfg0.N) :
    (dats m 0 c).flushed 3 t
      = ((cfg0.win 3).blk t).view.read (Elt Ideal) (expertsOut (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x128x2048) zero_offsets, View.ld_unit_zero (S := S1x2048x2816) zero_offsets,
    View.ld_unit_zero (S := S1x1408x2048) zero_offsets]
  obtain ⟨a0, a1, a2, b0, b1, b2, c0, c1, c2, d2, -, -⟩ := index_facts t
  funext j
  show k0_pay1 (F := Ideal) (iblk m c 0 t) (iblk m c 1 t) (iblk m c 2 t) j
    = expertsOut (V m c main_v0) (V m c main_v1) (V m c main_v2) (((cfg0.win 3).blk t).view.emb j)
  have hj0 : (j 0).val < 1 := (j 0).isLt
  refine entry_of_blocks (V m c main_v0) (V m c main_v1) (V m c main_v2) (iblk m c 0 t) (iblk m c 1 t) (iblk m c 2 t) j
    (((cfg0.win 3).blk t).view.emb j) ?_ ?_ ?_
  · -- the token block's row is the token array's row under the output's row
    intro k
    show V m c main_v0 (((cfg0.win 0).blk t).view.emb (ix3 (0 : Fin 1) (j 1) k))
      = V m c main_v0 (ix3 ((((cfg0.win 3).blk t).view.emb j) 0) ((((cfg0.win 3).blk t).view.emb j) 1) k)
    refine congrArg (V m c main_v0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 2048 + 1 * k.val = k.val; omega
  · -- the first weight block is the output's expert's matrix
    intro k f
    show V m c main_v1 (((cfg0.win 1).blk t).view.emb (ix3 (0 : Fin 1) k f))
      = V m c main_v1 (ix3 ((((cfg0.win 3).blk t).view.emb j) 0) k f)
    refine congrArg (V m c main_v1) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * k.val = k.val; omega
    | ⟨2, _⟩ => show win0_1.index t (2 : Fin 3) * 2816 + 1 * f.val = f.val; omega
  · -- the second weight block is that expert's second matrix, and the output's column is the block's
    intro f
    show V m c main_v2 (((cfg0.win 2).blk t).view.emb (ix3 (0 : Fin 1) f (j 2)))
      = V m c main_v2 (ix3 ((((cfg0.win 3).blk t).view.emb j) 0) f ((((cfg0.win 3).blk t).view.emb j) 2))
    refine congrArg (V m c main_v2) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 1408 + 1 * f.val = f.val; omega
    | ⟨2, _⟩ => show win0_2.index t (2 : Fin 3) * 2048 + 1 * (j 2).val = win0_3.index t (2 : Fin 3) * 2048 + 1 * (j 2).val; omega

/-! ## The blocks cover the array -/

/-- An entry of the output array is in point `t`'s block iff each coordinate is in the block's range on its axis. -/
theorem mem_blk (t : Fin cfg0.N) (i : S8x2048x2048.Idx) :
    i ∈ ((cfg0.win 3).blk t).view.set ↔ ∀ a : Fin 3, win0_3.index t a * S1x128x2048.size a ≤ (i a).val
      ∧ (i a).val < win0_3.index t a * S1x128x2048.size a + S1x128x2048.size a := by
  show i ∈ ((View.whole main_v3).slice (win0_3.rect t)).set ↔ _
  rw [View.set_slice_whole, Rect.mem_set_unit]
  exact Iff.rfl

/-- Entry (e, r, h) is in the block of the point of expert `e` and tile `r / 128`, which writes back. -/
theorem cover (i : S8x2048x2048.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 2048 := (i 2).isLt
  obtain ⟨t, ht⟩ := index_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 2048 ≤ (i 2).val ∧ (i 2).val < win0_3.index t (2 : Fin 3) * 2048 + 2048; omega

/-! ## The array after the region -/

/-- THE OUTPUT ARRAY AFTER THE LAST WRITE-BACK is `expertsOut` of the three arrays the region was entered with. -/
theorem region_out (c : Dev nD) :
    (dats m 0 c).arrAt 3 cfg0.N = expertsOut (V m c main_v0) (V m c main_v1) (V m c main_v2) :=
  (dats m 0 c).arrAt_eq_of_cover 3 _ (fun t _ => flushed_eq m c t) cover

end Cert.ExpertMlp.Blocks

end
-- ==== Proof.Host.lean ====
/-
  The host operations around the region.

  Before the region the program reshapes the 16384 × 2048 tokens to 8 × 2048 × 2048 (expert, token, feature) and
  changes the two weight arrays' float format, which is the identity on the extended reals: so the three arrays the
  region is entered with are the reshaped tokens and the two weight arguments themselves. After the region one
  reshape takes the 8 × 2048 × 2048 output array back to 16384 × 2048. With the region's output array known
  (`region_out`), the program's result is that reshape of `expertsOut` of the reshaped tokens and the two weight
  arguments.
-/
import proofs.«110397_j60026462929318_2_alg».proof.Proof.Gen.KernelIdeal.Frame
import proofs.«110397_j60026462929318_2_alg».proof.Proof.Blocks
import Idealize.ShloMosaic.Lib.StableHlo.Run
import Idealize.ShloMosaic.Lib.Pipeline.Value

noncomputable section

namespace Cert.ExpertMlp.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The arrays the region is entered with -/

/-- The token array is the token argument reshaped to (expert, token, feature). -/
theorem tokens_eq (c : Dev nD) :
    (V m c main_v0 : S8x2048x2048.Idx → EReal)
      = shapeCast S8x2048x2048 (m ((c : Thread nD τ).loc main_arg0)) shapeCasts_S16384x2048_S8x2048x2048 := by
  show StableHlo.after hostOps0 (fun b => m (c, b)) (Proc.devRef .tc main_v0) = _
  after_results
  rfl

/-- The first weight array is the first weight argument: the change of format is the identity. -/
theorem weights1_eq (c : Dev nD) :
    (V m c main_v1 : S8x2048x2816.Idx → EReal) = m ((c : Thread nD τ).loc main_arg2) := by
  show StableHlo.after hostOps0 (fun b => m (c, b)) (Proc.devRef .tc main_v1) = _
  after_results
  rfl

/-- The second weight array is the second weight argument. -/
theorem weights2_eq (c : Dev nD) :
    (V m c main_v2 : S8x1408x2048.Idx → EReal) = m ((c : Thread nD τ).loc main_arg3) := by
  show StableHlo.after hostOps0 (fun b => m (c, b)) (Proc.devRef .tc main_v2) = _
  after_results
  rfl

/-! ## The reshape after the region -/

/-- The program's result buffer after the last host operation is the region's output array reshaped. -/
theorem tail_eq (c : Dev nD) :
    (Pipeline.afterTail₀ cfgs (dats m) 0 (V0 m) [hostOps1] c main_v4 : S16384x2048.Idx → EReal)
      = shapeCast S16384x2048 ((dats m 0 c).arrAt 3 cfg0.N : S8x2048x2048.Idx → EReal) shapeCasts_S8x2048x2048_S16384x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = (dats m 0 c).arrAt 3 cfg0.N :=
    Pipeline.withArrays_arr spec0 launch0.win.arr_inj c (V0 m c) (fun w => (dats m 0 c).arrAt w (cfgs 0).N) 3
  rw [e]
  rfl

end Cert.ExpertMlp.Host

end
-- ==== Proof.KernelValue.lean ====
/-
  The idealized kernel program's run, with its result named.

  `result x w1 w2` is the whole computation as one function of the three float arguments: reshape the tokens to
  (expert, token, feature), apply `expertsOut` with the two weight arrays, reshape back to (token, feature). Every
  weakly fair execution of the program terminates with the result buffer at `result` of the arguments as launched and
  the four arguments unchanged: the region leaves `expertsOut` of the arrays it was entered with in its output array,
  those arrays are the reshaped tokens and the weights, and the one host operation after the region reshapes.
-/
import proofs.«110397_j60026462929318_2_alg».proof.Proof.Host

noncomputable section

namespace Cert.ExpertMlp.KernelValue

open Cert.KernelIdeal Cert.KernelIdeal.Gen Idealize.ShloMosaic Idealize.ShloMosaic.TcCoe Idealize.SL.Sem

/-- The program's result as a function of its token argument and two weight arguments. -/
def result (x : S16384x2048.Idx → EReal) (w1 : S8x2048x2816.Idx → EReal) (w2 : S8x1408x2048.Idx → EReal) :
    S16384x2048.Idx → EReal :=
  shapeCast S16384x2048 (expertsOut (shapeCast S8x2048x2048 x shapeCasts_S16384x2048_S8x2048x2048) w1 w2)
    shapeCasts_S8x2048x2048_S16384x2048

variable (m : (ℓ : Loc nD τ sig) → Buf (Elt Ideal) ℓ) (ρ : Dev nD → PrngReg)

/-- What the last host operation leaves in the result buffer is `result` of the arguments as launched. -/
theorem tail_result (c : Dev nD) :
    (Pipeline.afterTail₀ cfgs (dats m) 0 (V0 m) [hostOps1] c main_v4 : S16384x2048.Idx → EReal)
      = result (m ((c : Thread nD τ).loc main_arg0)) (m ((c : Thread nD τ).loc main_arg2)) (m ((c : Thread nD τ).loc main_arg3)) := by
  refine (Host.tail_eq m c).trans ?_
  rw [Blocks.region_out, Host.tokens_eq, Host.weights1_eq, Host.weights2_eq]
  rfl

/-- THE RUN: every weakly fair execution terminates, nothing faulting, with the result buffer at `result` of the
    arguments and the arguments unchanged. -/
theorem run : θ_run defs (onTc (τ := τ) (main (F := Ideal))) ⟨m, fun _ => 0, ρ⟩ (fun r => ∀ c : Dev nD,
      r.2.mem ((c.tc : Thread nD τ).loc main_v4)
        = result (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ExpertMlp.KernelValue

end
-- ==== Proof.lean ====
/-
  The certificate of a mixture-of-experts feed-forward kernel against its jnp reference, on the extended reals.

  16384 tokens of 2048 features are sorted by expert, 2048 to each of 8 experts. Each expert has a first weight matrix
  (2048 × 2816) and a second (1408 × 2048). A token row `x` of expert `e` goes to

      out = Σ_f ((g f * logistic (g f)) * v f) * w2 f,    g f = Σ_k x k * w1 k f,   v f = Σ_k x k * w1 k (1408 + f)

  at each of the 2048 output columns (`Proof/Swiglu.lean`: `tokenOut`, `expertsOut`).

  The kernel tiles each expert's tokens 128 at a time over an 8 × 16 grid and does both matrix products whole inside
  the body; the reference does the same computation with two batched products over all experts at once and spells
  `logistic g` as `1 / (1 + exp (-g))`, which is the definition of `logistic` on the extended reals. Neither product's
  contraction is split, the factors stand in the same order on both sides, and the changes of float format are the
  identity, so the two results are the SAME term entry by entry: no law of arithmetic is used and the finiteness of
  the inputs is never opened.

    Proof/RefValue.lean     the reference's result before its last reshape is `expertsOut`
    Proof/Body.lean         the kernel body's stored block at an entry is `tokenOut` of its blocks' rows
    Proof/Blocks.lean       the grid points' blocks are blocks of `expertsOut` and cover the output array
    Proof/Host.lean         the reshape and format changes before the region, the reshape after it
    Proof/KernelValue.lean  the kernel program's run with its result named

  The three frames are the programs' runs with the results dropped; the idealization rewrote nothing, so `preserves`
  has nothing to state.
-/
import proofs.«110397_j60026462929318_2_alg».proof.Defs
import proofs.«110397_j60026462929318_2_alg».proof.Proof.Gen.Kernel
import proofs.«110397_j60026462929318_2_alg».proof.Proof.Gen.Kernel.Skeleton
import proofs.«110397_j60026462929318_2_alg».proof.Proof.Gen.Kernel.Launch
import proofs.«110397_j60026462929318_2_alg».proof.Proof.Gen.Kernel.Points
import proofs.«110397_j60026462929318_2_alg».proof.Proof.Gen.Kernel.Frame
import proofs.«110397_j60026462929318_2_alg».proof.Proof.Gen.KernelIdeal
import proofs.«110397_j60026462929318_2_alg».proof.Proof.Gen.KernelIdeal.Skeleton
import proofs.«110397_j60026462929318_2_alg».proof.Proof.Gen.KernelIdeal.Launch
import proofs.«110397_j60026462929318_2_alg».proof.Proof.Gen.KernelIdeal.Points
import proofs.«110397_j60026462929318_2_alg».proof.Proof.Gen.KernelIdeal.Frame
import proofs.«110397_j60026462929318_2_alg».proof.Proof.Gen.ReferenceIdeal
import proofs.«110397_j60026462929318_2_alg».proof.Proof.Gen.ReferenceIdeal.Run
import proofs.«110397_j60026462929318_2_alg».proof.Proof.Gen.ReferenceIdeal.Read
import proofs.«110397_j60026462929318_2_alg».proof.Proof.Gen.Pre_finite_inputs
import proofs.«110397_j60026462929318_2_alg».proof.Proof.RefValue
import proofs.«110397_j60026462929318_2_alg».proof.Proof.KernelValue
import Idealize.ShloMosaic.Adequacy
import Idealize.ShloMosaic.Init

noncomputable section

namespace Cert.Proof

open Idealize.ShloMosaic Idealize.ShloMosaic.TcCoe Idealize.SL.Sem

/-- The reference's result term is `result` of its arguments: its last stage is the reshape of the stage before, that
    stage is `expertsOut` of the reshaped tokens and the weights, and the first stage is the tokens' reshape. -/
theorem reference_result (x0 : (⟨Cert.ReferenceIdeal.S16384x2048, .f32⟩ : BufTy).Contents (Elt Ideal))
    (x2 : (⟨Cert.ReferenceIdeal.S8x2048x2816, .f32⟩ : BufTy).Contents (Elt Ideal))
    (x3 : (⟨Cert.ReferenceIdeal.S8x1408x2048, .f32⟩ : BufTy).Contents (Elt Ideal)) :
    Cert.ReferenceIdeal.Read.val_main_v7 (F := Ideal) x0 x2 x3 = Cert.ExpertMlp.KernelValue.result x0 x2 x3 := by
  unfold Cert.ReferenceIdeal.Read.val_main_v7
  rw [Cert.ExpertMlp.Reference.result_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the result buffer at `result` of the
    kernel's arguments. -/
theorem algebraic : Cert.algebraic_KernelIdeal_ReferenceIdeal := by
  intro m ρ m' ρ' _ hagree
  refine ⟨fun c => Cert.ExpertMlp.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.ExpertMlp.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact (Cert.ReferenceIdeal.Read.val_main_v7_eq _ _ _).trans (reference_result _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
